-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S8x3 : Shape := ⟨2, ![8, 3]⟩
abbrev S2048x8 : Shape := ⟨2, ![2048, 8]⟩
abbrev S2048 : Shape := ⟨1, ![2048]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S8x3 : S_.BroadcastsInDim S8x3 (![] : Fin 0 → Fin S8x3.rank)
  reducesTo_S8x3_S_d0_1 : S8x3.ReducesTo [0, 1] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S16x4096x512 .f32) (main_arg1 : FVec F S8x3 .f32) (main_arg2 : FVec F S2048x8 .f32) (main_arg3 : FVec F S2048 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S16x4096x512 : Shape := ⟨3, ![16, 4096, 512]⟩
abbrev S8x3 : Shape := ⟨2, ![8, 3]⟩
abbrev S2048x8 : Shape := ⟨2, ![2048, 8]⟩
abbrev S2048 : Shape := ⟨1, ![2048]⟩
abbrev S65536x512 : Shape := ⟨2, ![65536, 512]⟩
abbrev S8x1 : Shape := ⟨2, ![8, 1]⟩
abbrev S8 : Shape := ⟨1, ![8]⟩
abbrev S1x8 : Shape := ⟨2, ![1, 8]⟩
abbrev S8x2048 : Shape := ⟨2, ![8, 2048]⟩
abbrev S1x2048 : Shape := ⟨2, ![1, 2048]⟩
abbrev S65536x2048 : Shape := ⟨2, ![65536, 2048]⟩
abbrev S1024x128 : Shape := ⟨2, ![1024, 128]⟩
abbrev S1024x2048 : Shape := ⟨2, ![1024, 2048]⟩
abbrev S1024x8 : Shape := ⟨2, ![1024, 8]⟩
abbrev S16x4096x2048 : Shape := ⟨3, ![16, 4096, 2048]⟩

abbrev nBuf : Space → Nat
  | .hbm => 15
  | .vmem => 6
  | .smem => 0
  | _ => 0

abbrev bufTy : (tb : Table) → Fin (tcTables nBuf tb) → BufTy
  | .hbm, ⟨0, _⟩ => ⟨S16x4096x512, .f32⟩
  | .hbm, ⟨1, _⟩ => ⟨S8x3, .f32⟩
  | .hbm, ⟨2, _⟩ => ⟨S2048x8, .f32⟩
  | .hbm, ⟨3, _⟩ => ⟨S2048, .f32⟩
  | .hbm, ⟨4, _⟩ => ⟨S65536x512, .f32⟩
  | .hbm, ⟨5, _⟩ => ⟨S8x1, .f32⟩
  | .hbm, ⟨6, _⟩ => ⟨S8, .f32⟩
  | .hbm, ⟨7, _⟩ => ⟨S8, .f32⟩
  | .hbm, ⟨8, _⟩ => ⟨S1x8, .f32⟩
  | .hbm, ⟨9, _⟩ => ⟨S2048x8, .f32⟩
  | .hbm, ⟨10, _⟩ => ⟨S2048x8, .f32⟩
  | .hbm, ⟨11, _⟩ => ⟨S8x2048, .f32⟩
  | .hbm, ⟨12, _⟩ => ⟨S1x2048, .f32⟩
  | .hbm, ⟨13, _⟩ => ⟨S65536x2048, .f32⟩
  | .hbm, ⟨14, _⟩ => ⟨S16x4096x2048, .f32⟩
  | .local _ .vmem, ⟨0, _⟩ => ⟨S1024x128, .f32⟩
  | .local _ .vmem, ⟨1, _⟩ => ⟨S1024x128, .f32⟩
  | .local _ .vmem, ⟨2, _⟩ => ⟨S8x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x512_S65536x512 : S16x4096x512.ShapeCasts S65536x512
  slices_S8x3_S8x1_0_0 : S8x3.Slices ![0, 0] S8x1
  shapeCasts_S8x1_S8 : S8x1.ShapeCasts S8
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  transposes_S2048x8_S8x2048_1_0 : S2048x8.Transposes [1, 0] S8x2048
  shapeCasts_S2048_S1x2048 : S2048.ShapeCasts S1x2048
  inb_S1024x128_S1024x8_0_0 : ∀ a, (![0, 0] : Fin 2 → Nat) a + S1024x8.size a ≤ S1024x128.size a
  h_S1024x8 : 0 < S1024x8.numel
  shapeCasts_S1024x8_S1024x8 : S1024x8.ShapeCasts S1024x8
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S65536x2048_S16x4096x2048 : S65536x2048.ShapeCasts S16x4096x2048
  dot_S1024x8_S8x2048_S1024x2048_1_0_0_1_n_n_wf : DotDims.WF S1024x8 S8x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x512.size a
  hwx0_0 : ∀ i : grid0.Coords, EltTy.bits .f32 = 32 ∨ (Rect.block (s := S65536x512) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S65536x2048.size a
  hwx0_3 : ∀ i : grid0.Coords, EltTy.bits .f32 = 32 ∨ (Rect.block (s := S65536x2048) S1024x2048.size (cc0_transform_3 i) (hinb0_3 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S8x3 : Shape := ⟨2, ![8, 3]⟩
abbrev S2048x8 : Shape := ⟨2, ![2048, 8]⟩
abbrev S2048 : Shape := ⟨1, ![2048]⟩
abbrev S8 : Shape := ⟨1, ![8]⟩
abbrev S_ : Shape := ⟨0, ![]⟩
abbrev S8x1 : Shape := ⟨2, ![8, 1]⟩
abbrev S16x4096x8 : Shape := ⟨3, ![16, 4096, 8]⟩
abbrev S1x1x8 : Shape := ⟨3, ![1, 1, 8]⟩
abbrev S16x4096x2048 : Shape := ⟨3, ![16, 4096, 2048]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S8x3, .f32⟩
  | .hbm, ⟨2, _⟩ => ⟨S2048x8, .f32⟩
  | .hbm, ⟨3, _⟩ => ⟨S2048, .f32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S_, .i32⟩
  | .hbm, ⟨20, _⟩ => ⟨S_, .i1⟩
  | .hbm, ⟨21, _⟩ => ⟨S8, .i1⟩
  | .hbm, ⟨22, _⟩ => ⟨S8, .i1⟩
  | .hbm, ⟨23, _⟩ => ⟨S8, .i1⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .i32⟩
  | .hbm, ⟨34, _⟩ => ⟨S8x1, .i32⟩
  | .hbm, ⟨35, _⟩ => ⟨S16x4096x8, .f32⟩
  | .hbm, ⟨36, _⟩ => ⟨S16x4096x8, .f32⟩
  | .hbm, ⟨37, _⟩ => ⟨S8x1, .f32⟩
  | .hbm, ⟨38, _⟩ => ⟨S8, .f32⟩
  | .hbm, ⟨39, _⟩ => ⟨S8, .f32⟩
  | .hbm, ⟨40, _⟩ => ⟨S1x1x8, .f32⟩
  | .hbm, ⟨41, _⟩ => ⟨S16x4096x8, .f32⟩
  | .hbm, ⟨42, _⟩ => ⟨S16x4096x8, .f32⟩
  | .hbm, ⟨43, _⟩ => ⟨S16x4096x2048, .f32⟩
  | .hbm, ⟨44, _⟩ => ⟨S1x1x2048, .f32⟩
  | .hbm, ⟨45, _⟩ => ⟨S16x4096x2048, .f32⟩
  | .hbm, ⟨46, _⟩ => ⟨S16x4096x2048, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  slices_S8x3_S8x1_0_0 : S8x3.Slices ![0, 0] S8x1
  shapeCasts_S8x1_S8 : S8x1.ShapeCasts S8
  bcast_S8_S1x1x8_2 : S8.BroadcastsInDim S1x1x8 (![2] : Fin 1 → Fin S1x1x8.rank)
  bcast_S1x1x8_S16x4096x8_0_1_2 : S1x1x8.BroadcastsInDim S16x4096x8 (![0, 1, 2] : Fin 3 → Fin S16x4096x8.rank)
  bcast_S2048_S1x1x2048_2 : S2048.BroadcastsInDim S1x1x2048 (![2] : Fin 1 → Fin S1x1x2048.rank)
  bcast_S1x1x2048_S16x4096x2048_0_1_2 : S1x1x2048.BroadcastsInDim S16x4096x2048 (![0, 1, 2] : Fin 3 → Fin S16x4096x2048.rank)
  gather_S16x4096x512_S8x1_S16x4096x8_01_2_n_n_2_1_1640961_wf : GatherDims.WF S16x4096x512 S8x1 S16x4096x8 [0, 1] [2] [] [2] [] 1 ![16, 4096, 1]
  dot_S16x4096x8_S2048x8_S16x4096x2048_2_1_01_0_n_n_wf : DotDims.WF S16x4096x8 S2048x8 S16x4096x2048 [2] [1] [0, 1] [0] [] []

variable [Facts₀]

def gather_S16x4096x512_S8x1_S16x4096x8_01_2_n_n_2_1_1640961 : GatherDims S16x4096x512 S8x1 S16x4096x8 where
  offsetDims := [0, 1]
  collapsedSliceDims := [2]
  operandBatchingDims := []
  startIndicesBatchingDims := []
  startIndexMap := [2]
  indexVectorDim := 1
  sliceSizes := ![16, 4096, 1]
  wf := gather_S16x4096x512_S8x1_S16x4096x8_01_2_n_n_2_1_1640961_wf
def dot_S16x4096x8_S2048x8_S16x4096x2048_2_1_01_0_n_n : DotDims S16x4096x8 S2048x8 S16x4096x2048 where
  lhsContracting := [2]
  rhsContracting := [1]
  lhsNonContracting := [0, 1]
  rhsNonContracting := [0]
  lhsBatch := []
  rhsBatch := []
  wf := dot_S16x4096x8_S2048x8_S16x4096x2048_2_1_01_0_n_n_wf

class Facts : Prop extends Facts₀ where

variable [Facts]
-- ==== Proof.KernelBody.lean ====
/-
  The kernel body's stored value at one index of the output block.

  The body takes the cosine of the first eight lanes of its token block, multiplies that [1024, 8] matrix by the
  [8, 2048] weight block into a zero accumulator, and adds the bias row broadcast over the 1024 rows. Roundings of
  the matrix product's operands to a narrower format are the identity on the extended reals, and the product into
  the zero accumulator is the plain sum over the eight features.
-/
import proofs.«138150_j65481071406287_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The matrix product's dimension numbers: rows by features times features by columns. -/
abbrev MD := dot_S1024x8_S8x2048_S1024x2048_1_0_0_1_n_n

/-- The product into the zero accumulator read at (r, f): the sum over the eight features. -/
theorem product_apply (l : FVec Ideal S1024x8 .bf16) (w : FVec Ideal S8x2048 .bf16) (r : Fin 1024) (f : Fin 2048) :
    matmul MD none l w (constant (F := Ideal) S1024x2048 .f32 0x00000000#32) (ix2 r f)
      = ∑ q : Fin 8, l (ix2 r q) * w (ix2 q f) := by
  show FloatOps.matmul MD none l w (constant (F := Ideal) S1024x2048 .f32 0x00000000#32) (ix2 r f) = _
  rw [Ideal.matmul_constant_zero_apply, ← Equiv.sum_comp (contrEquiv1 MD 8 rfl rfl).symm]
  refine Finset.sum_congr rfl fun q _ => ?_
  have hl : MD.lhsIdx (ix2 r f) ((contrEquiv1 MD 8 rfl rfl).symm q) = ix2 r q := by
    funext a; refine Fin.ext ?_
    match a with
    | ⟨0, _⟩ => rfl
    | ⟨1, _⟩ =>
      exact (DotDims.lhsIdx_val_of_single MD (cl := (1 : Fin 2)) rfl _ _).trans (contrEquiv1_symm_val MD 8 rfl rfl q)
  have hr : MD.rhsIdx (ix2 r f) ((contrEquiv1 MD 8 rfl rfl).symm q) = ix2 q f := by
    funext a; refine Fin.ext ?_
    match a with
    | ⟨0, _⟩ =>
      exact (DotDims.rhsIdx_val_of_single MD (cr := (0 : Fin 2)) rfl _ _).trans (contrEquiv1_symm_val MD 8 rfl rfl q)
    | ⟨1, _⟩ => rfl
  rw [hl, hr]

/-- The stored value at (r, f): the sum over the eight features of the cosine of the token's feature times the
    weight block's entry, plus the bias row's entry. -/
theorem stored_apply (v0 : Vec Ideal S1024x8 .f32) (v4 : Vec Ideal S8x2048 .f32) (v8 : Vec Ideal S1x2048 .f32)
    (r : Fin 1024) (f : Fin 2048) :
    k0_pay1 v0 v4 v8 (ix2 r f)
      = (∑ q : Fin 8, Ideal.cos (v0 (ix2 r q)) * v4 (ix2 q f)) + v8 (ix2 (0 : Fin 1) f) := by
  unfold k0_pay1
  simp only [shapeCast_self]
  show matmul MD none (truncf .bf16 (cos v0) bitsLt_bf16_f32) (truncf .bf16 v4 bitsLt_bf16_f32)
        (constant (F := Ideal) S1024x2048 .f32 0x00000000#32) (ix2 r f)
      + broadcastTo S1024x2048 v8 broadcasts_S1x2048_S1024x2048 (ix2 r f) = _
  rw [product_apply, broadcastTo_1b_ab_apply]
  rfl

end Cert.KernelIdeal.Body

end
-- ==== Proof.KernelRegion.lean ====
/-
  From what each grid point writes back to the whole output array, and the reshape after the region.

  Grid point t stages rows 1024·t .. 1024·t + 1023 of the flattened tokens (their first 128 lanes), the whole
  scaled-weight array and the whole bias row, and writes back rows 1024·t .. 1024·t + 1023 of the output. What it
  writes is the block, at those rows, of one function of the three staged arrays: row n, column f holds the sum over
  the eight features of cos(tokens[n, q]) · weights[q, f], plus bias[0, f]. The 64 points' blocks tile the 65536
  rows, so after the region the output array is that function; the host line after the region gives it back the
  token axes (16, 4096).
-/
import proofs.«138150_j65481071406287_2_alg».proof.Proof.Gen.KernelIdeal.Frame
import proofs.«138150_j65481071406287_2_alg».proof.Proof.KernelBody
import Idealize.ShloMosaic.Lib.Pipeline.Value
import Idealize.ShloMosaic.Lib.ValueIdx
import Idealize.ShloMosaic.Lib.StableHlo.Run

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- Feature q as a column of the 512. -/
abbrev col (q : Fin 8) : Fin 512 := ⟨q.val, by omega⟩

/-- The output array's entry at row n and column f, from the three staged arrays. -/
def flatAt (x0 : S65536x512.Idx → EReal) (wt : S8x2048.Idx → EReal) (b2 : S1x2048.Idx → EReal) (n : Fin 65536) (f : Fin 2048) : EReal :=
  (∑ q : Fin 8, Ideal.cos (x0 (ix2 n (col q))) * wt (ix2 q f)) + b2 (ix2 (0 : Fin 1) f)

/-- The output array as one function of the three staged arrays. -/
def flat (x0 : S65536x512.Idx → EReal) (wt : S8x2048.Idx → EReal) (b2 : S1x2048.Idx → EReal) : S65536x2048.Idx → EReal :=
  fun i => flatAt x0 wt b2 (i 0) (i 1)

/-- The printed index maps over the 64 points: the token window and the output window are on block row t, column
    block 0; the weight and bias windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value at a block index is the function's entry at the array index under it. -/
theorem block_eq (c : Dev nD) (t : Fin cfg0.N) (r : Fin 1024) (f : Fin 2048) :
    k0_pay1 (View.ld (iblk m c 0 t) r0_0) (iblk m c 1 t) (iblk m c 2 t) (ix2 r f)
      = flat (V m c main_v0) (V m c main_v7) (V m c main_v8) (((cfg0.win 3).blk t).view.emb (ix2 r f)) := by
  obtain ⟨e00, e01, e10, e11, e20, e21, e30, e31⟩ := idx_facts t
  refine (Body.stored_apply (View.ld (iblk m c 0 t) r0_0) (iblk m c 1 t) (iblk m c 2 t) r f).trans ?_
  have hrow : (((cfg0.win 3).blk t).view.emb (ix2 r f) 0).val = t.val * 1024 + r.val := by
    show win0_3.index t (0 : Fin 2) * 1024 + 1 * r.val = _
    omega
  have hcol : (((cfg0.win 3).blk t).view.emb (ix2 r f) 1).val = f.val := by
    show win0_3.index t (1 : Fin 2) * 2048 + 1 * f.val = _
    omega
  have h0 : ∀ q : Fin 8, ((cfg0.win 0).blk t).view.emb (r0_0.emb (ix2 r q))
      = ix2 (((cfg0.win 3).blk t).view.emb (ix2 r f) 0) (col q) := fun q => by
    funext a; apply Fin.ext
    match a with
    | ⟨0, _⟩ =>
      show win0_0.index t (0 : Fin 2) * 1024 + 1 * (0 + 1 * r.val) = (((cfg0.win 3).blk t).view.emb (ix2 r f) 0).val
      omega
    | ⟨1, _⟩ =>
      show win0_0.index t (1 : Fin 2) * 128 + 1 * (0 + 1 * q.val) = q.val
      omega
  have h1 : ∀ q : Fin 8, ((cfg0.win 1).blk t).view.emb (ix2 q f)
      = ix2 q (((cfg0.win 3).blk t).view.emb (ix2 r f) 1) := fun q => by
    funext a; apply Fin.ext
    match a with
    | ⟨0, _⟩ =>
      show win0_1.index t (0 : Fin 2) * 8 + 1 * q.val = q.val
      omega
    | ⟨1, _⟩ =>
      show win0_1.index t (1 : Fin 2) * 2048 + 1 * f.val = (((cfg0.win 3).blk t).view.emb (ix2 r f) 1).val
      omega
  have h2 : ((cfg0.win 2).blk t).view.emb (ix2 (0 : Fin 1) f)
      = ix2 (0 : Fin 1) (((cfg0.win 3).blk t).view.emb (ix2 r f) 1) := by
    funext a; apply Fin.ext
    match a with
    | ⟨0, _⟩ =>
      show win0_2.index t (0 : Fin 2) * 1 + 1 * 0 = 0
      omega
    | ⟨1, _⟩ =>
      show win0_2.index t (1 : Fin 2) * 2048 + 1 * f.val = (((cfg0.win 3).blk t).view.emb (ix2 r f) 1).val
      omega
  show (∑ q : Fin 8, Ideal.cos (V m c main_v0 (((cfg0.win 0).blk t).view.emb (r0_0.emb (ix2 r q))))
          * V m c main_v7 (((cfg0.win 1).blk t).view.emb (ix2 q f)))
        + V m c main_v8 (((cfg0.win 2).blk t).view.emb (ix2 (0 : Fin 1) f))
      = (∑ q : Fin 8, Ideal.cos (V m c main_v0 (ix2 (((cfg0.win 3).blk t).view.emb (ix2 r f) 0) (col q)))
          * V m c main_v7 (ix2 q (((cfg0.win 3).blk t).view.emb (ix2 r f) 1)))
        + V m c main_v8 (ix2 (0 : Fin 1) (((cfg0.win 3).blk t).view.emb (ix2 r f) 1))
  rw [h2]
  exact congrArg (· + _) (Finset.sum_congr rfl fun q _ => by rw [h0 q, h1 q]; rfl)

/-- What point t writes back is block t of the function of the staged arrays. -/
theorem flushed_eq (c : Dev nD) (t : Fin cfg0.N) :
    (dats m 0 c).flushed 3 t
      = ((cfg0.win 3).blk t).view.read (Elt Ideal) (flat (V m c main_v0) (V m c main_v7) (V m c main_v8)) := by
  show (cfg0.win 3).cut (grid0.coords t) ((dats m 0 c).after 3 t) = _
  rw [after0_3]
  unfold out0_3
  rw [View.canon_unit_zero zeros]
  simp only [View.ld_unit_zero (S := S8x2048) zeros, View.ld_unit_zero (S := S1x2048) zeros]
  funext j
  obtain ⟨r, f, rfl⟩ : ∃ (r : Fin 1024) (f : Fin 2048), j = ix2 r f := ⟨j 0, j 1, eq_ix2 j⟩
  exact block_eq m c t r f

/-- An index of the output array is in point t's block iff each coordinate is in the block's range on its axis. -/
theorem mem_blk (t : Fin cfg0.N) (i : S65536x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v9).slice (win0_3.rect t)).set ↔ _
  rw [View.set_slice_whole, Rect.mem_set_unit]
  exact Iff.rfl

/-- Every index is in some point's block: row n is among the rows of point n / 1024, and every column is in the one column block. -/
theorem cover (i : S65536x2048.Idx) :
    ∃ t : Fin cfg0.N, (cfg0.win 3).flush t = true ∧ i ∈ ((cfg0.win 3).blk t).view.set := by
  have hi0 : (i 0).val < 65536 := (i 0).isLt
  have hi1 : (i 1).val < 2048 := (i 1).isLt
  have hN : cfg0.N = 64 := N_0
  have hlt : (i 0).val / 1024 < cfg0.N := by rw [hN]; omega
  obtain ⟨-, -, -, -, -, -, e30, e31⟩ := idx_facts ⟨(i 0).val / 1024, hlt⟩
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win0_3.index ⟨(i 0).val / 1024, hlt⟩ (1 : Fin 2) * 2048 ≤ (i 1).val
      ∧ (i 1).val < win0_3.index ⟨(i 0).val / 1024, hlt⟩ (1 : Fin 2) * 2048 + 2048
    rw [e31]
    omega

/-- The output array after the region is the function of the staged arrays. -/
theorem final (c : Dev nD) :
    (dats m 0 c).arrAt 3 cfg0.N = flat (V m c main_v0) (V m c main_v7) (V m c main_v8) :=
  (dats m 0 c).arrAt_eq_of_cover 3 _ (fun t _ => flushed_eq m c t) cover

/-- The host line after the region gives the array back its token axes. -/
theorem result_eq (c : Dev nD) :
    Pipeline.afterTail₀ cfgs (dats m) 0 (V0 m) [hostOps1] c main_v10
      = shapeCast S16x4096x2048 (flat (V m c main_v0) (V m c main_v7) (V m c main_v8))
          shapeCasts_S65536x2048_S16x4096x2048 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = flat (V m c main_v0) (V m c main_v7) (V m c main_v8) :=
    (Pipeline.withArrays_arr spec0 launch0.win.arr_inj c _ _ 3).trans (final m c)
  rw [e]
  rfl

/-- Every weakly fair execution of the kernel's program terminates with the result buffer at the reshaped function
    of the staged arrays, and the argument arrays as launched. -/
theorem run : θ_run defs (onTc (τ := τ) (main (F := Ideal))) ⟨m, fun _ => 0, ρ⟩ fun r => ∀ c : Dev nD,
      r.2.mem ((c.tc : Thread nD τ).loc main_v10)
          = shapeCast S16x4096x2048 (flat (V m c main_v0) (V m c main_v7) (V m c main_v8))
              shapeCasts_S65536x2048_S16x4096x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Region

end
-- ==== Proof.KernelEntry.lean ====
/-
  What the region finds in the three arrays its input windows stage.

  Before the region the host lines flatten the tokens to one axis of 65536 rows, scale each weight by the cosine of
  its feature's parameter and transpose the scaled weights to [8, 2048], and give the bias a leading unit axis. Each
  of the three arrays is read here as the composed term of the argument arrays as launched.
-/
import proofs.«138150_j65481071406287_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The weights scaled by the cosine of each feature's parameter, transposed: entry (q, f) is W[f, q] · cos p[q, 0]. -/
def scaledWT (p : (⟨S8x3, .f32⟩ : BufTy).Contents (Elt F)) (W : (⟨S2048x8, .f32⟩ : BufTy).Contents (Elt F)) :
    (⟨S8x2048, .f32⟩ : BufTy).Contents (Elt F) :=
  transpose S8x2048 [1, 0]
    (mulf W
      (broadcastInDim S2048x8 ![0, 1] bcast_S1x8_S2048x8_0_1
        (broadcastInDim S1x8 ![1] bcast_S8_S1x8_1
          (Host.cos (shapeCast S8 (extractStridedSlice S8x1 ![0, 0] p slices_S8x3_S8x1_0_0) shapeCasts_S8x1_S8)))))
    transposes_S2048x8_S8x2048_1_0

/-- The first window's array: the tokens flattened. -/
theorem tokens (c : Dev nD) :
    (V m c main_v0 : (⟨S65536x512, .f32⟩ : BufTy).Contents (Elt F))
      = shapeCast S65536x512 (m ((c : Thread nD τ).loc main_arg0)) shapeCasts_S16x4096x512_S65536x512 := by
  show StableHlo.after hostOps0 (fun b => m (c, b)) (Proc.devRef .tc main_v0) = _
  after_results
  rfl

/-- The second window's array: the scaled, transposed weights. -/
theorem weights (c : Dev nD) :
    (V m c main_v7 : (⟨S8x2048, .f32⟩ : BufTy).Contents (Elt F))
      = scaledWT (m ((c : Thread nD τ).loc main_arg1)) (m ((c : Thread nD τ).loc main_arg2)) := by
  show StableHlo.after hostOps0 (fun b => m (c, b)) (Proc.devRef .tc main_v7) = _
  after_results
  rfl

/-- The third window's array: the bias as one row. -/
theorem biasRow (c : Dev nD) :
    (V m c main_v8 : (⟨S1x2048, .f32⟩ : BufTy).Contents (Elt F))
      = shapeCast S1x2048 (m ((c : Thread nD τ).loc main_arg3)) shapeCasts_S2048_S1x2048 := by
  show StableHlo.after hostOps0 (fun b => m (c, b)) (Proc.devRef .tc main_v8) = _
  after_results
  rfl

end Cert.KernelIdeal.Entry

end
-- ==== Proof.Spec.lean ====
/-
  What both programs compute, as one function of the four argument arrays, and the law that joins their two
  arrangements of it.

  For a token (b, s) and an output feature f the result is

      ( Σ_{q < 8}  (cos x[b, s, q] · cos p[q, 0]) · W[f, q] )  +  bias[f]

  on the extended reals: the cosine of the token's first eight features, each scaled by the cosine of the first
  column of the parameters, contracted against row f of the weights, plus the bias. The reference multiplies in
  that order; the kernel scales the weights first and multiplies the feature's cosine by the scaled weight,
  cos x · (W · cos p). The two products are equal term by term because multiplication of extended reals is
  commutative and associative — no distributivity and no cancellation is involved, so no finiteness is needed.
-/
import Idealize.ShloMosaic.PureOps.Ideal
import Idealize.ShloMosaic.Lib.ValueIdx

noncomputable section

namespace Cert.Spec

open Idealize.ShloMosaic Idealize.ShloMosaic.ValueIdx

/-- Feature q of the eight that are read, as a column of the 512. -/
abbrev col (q : Fin 8) : Fin 512 := ⟨q.val, by omega⟩

/-- The first of the parameters' three columns. -/
abbrev first : Fin 3 := ⟨0, by omega⟩

/-- One term of the contraction, in the reference's order. -/
def term (x : (⟨3, ![16, 4096, 512]⟩ : Shape).Idx → EReal) (p : (⟨2, ![8, 3]⟩ : Shape).Idx → EReal)
    (W : (⟨2, ![2048, 8]⟩ : Shape).Idx → EReal) (b : Fin 16) (s : Fin 4096) (f : Fin 2048) (q : Fin 8) : EReal :=
  (Ideal.cos (x (ix3 b s (col q))) * Ideal.cos (p (ix2 q first))) * W (ix2 f q)

/-- The result at token (b, s) and feature f. -/
def at3 (x : (⟨3, ![16, 4096, 512]⟩ : Shape).Idx → EReal) (p : (⟨2, ![8, 3]⟩ : Shape).Idx → EReal)
    (W : (⟨2, ![2048, 8]⟩ : Shape).Idx → EReal) (bias : (⟨1, ![2048]⟩ : Shape).Idx → EReal)
    (b : Fin 16) (s : Fin 4096) (f : Fin 2048) : EReal :=
  (∑ q : Fin 8, term x p W b s f q) + bias (ix1 f)

/-- The whole result array. -/
def G (x : (⟨3, ![16, 4096, 512]⟩ : Shape).Idx → EReal) (p : (⟨2, ![8, 3]⟩ : Shape).Idx → EReal)
    (W : (⟨2, ![2048, 8]⟩ : Shape).Idx → EReal) (bias : (⟨1, ![2048]⟩ : Shape).Idx → EReal) :
    (⟨3, ![16, 4096, 2048]⟩ : Shape).Idx → EReal :=
  fun i => at3 x p W bias (i 0) (i 1) (i 2)

/-- The kernel's arrangement of one term: the feature's cosine times the weight already scaled by the parameter's
    cosine. -/
theorem scaled_weight (a c w : EReal) : a * (w * c) = (a * c) * w := by
  rw [mul_comm w c, mul_assoc]

end Cert.Spec

end
-- ==== Proof.KernelClosed.lean ====
/-
  The kernel's result as a term of the four argument arrays, and that it is the specification.

  The region's three staged arrays are the tokens flattened, the weights scaled by the parameters' cosines and
  transposed, and the bias as one row; the result is the region's output given back its token axes. Read at
  (b, s, f): the reshape after the region reads row 4096·b + s of the region's output, the flattening before it
  reads token (b, s), the transposed scaled weight at (q, f) is W[f, q] · cos p[q, 0], and the bias row at (0, f) is
  bias[f]. So each term of the sum is cos x[b, s, q] · (W[f, q] · cos p[q, 0]), which is the specification's term
  (cos x[b, s, q] · cos p[q, 0]) · W[f, q].
-/
import proofs.«138150_j65481071406287_2_alg».proof.Proof.KernelRegion
import proofs.«138150_j65481071406287_2_alg».proof.Proof.KernelEntry
import proofs.«138150_j65481071406287_2_alg».proof.Proof.Spec
import Idealize.ShloMosaic.Lib.ValueLayout

noncomputable section

namespace Cert.KernelIdeal.Closed

open Cert.KernelIdeal Cert.KernelIdeal.Gen Idealize.ShloMosaic Idealize.ShloMosaic.TcCoe Idealize.SL.Sem
open Idealize.ShloMosaic.ValueIdx

/-- The kernel's result as a term of its arguments. -/
def out (x : S16x4096x512.Idx → EReal) (p : S8x3.Idx → EReal) (W : S2048x8.Idx → EReal) (bias : S2048.Idx → EReal) :
    S16x4096x2048.Idx → EReal :=
  shapeCast S16x4096x2048
    (Region.flat (shapeCast S65536x512 x shapeCasts_S16x4096x512_S65536x512) (Entry.scaledWT (F := Ideal) p W)
      (shapeCast S1x2048 bias shapeCasts_S2048_S1x2048))
    shapeCasts_S65536x2048_S16x4096x2048

/-- Row 4096·b + s of the flattened tokens is token (b, s). -/
theorem token_apply (x : S16x4096x512.Idx → EReal) (b : Fin 16) (s : Fin 4096) (c : Fin 512) :
    shapeCast S65536x512 x shapeCasts_S16x4096x512_S65536x512 (ix2 (⟨b.val * 4096 + s.val, by omega⟩ : Fin 65536) c)
      = x (ix3 b s c) := by
  refine shapeCast_apply x shapeCasts_S16x4096x512_S65536x512 _ (ix3 b s c) ?_
  rw [Shape.rowMajor_val_three, Shape.rowMajor_val_two]
  rfl

/-- The scaled, transposed weight at (q, f) is the weight at (f, q) times the cosine of the parameter of q. -/
theorem weight_apply (p : S8x3.Idx → EReal) (W : S2048x8.Idx → EReal) (q : Fin 8) (f : Fin 2048) :
    Entry.scaledWT (F := Ideal) p W (ix2 q f) = W (ix2 f q) * Ideal.cos (p (ix2 q Cert.Spec.first)) := by
  unfold Entry.scaledWT
  rw [transpose_ix2_apply]
  show W (ix2 f q) * _ = _
  refine congrArg (W (ix2 f q) * ·) ?_
  refine (broadcastInDim_apply _ bcast_S1x8_S2048x8_0_1 _ (ix2 f q) (ix2 (0 : Fin 1) q) fun a => ?_).trans ?_
  · match a with
    | ⟨0, _⟩ => rfl
    | ⟨1, _⟩ => rfl
  refine (broadcastInDim_apply _ bcast_S8_S1x8_1 _ (ix2 (0 : Fin 1) q) (ix1 q) fun a => ?_).trans ?_
  · match a with
    | ⟨0, _⟩ => rfl
  show Ideal.cos (shapeCast S8 (extractStridedSlice S8x1 ![0, 0] p slices_S8x3_S8x1_0_0) shapeCasts_S8x1_S8 (ix1 q)) = _
  refine congrArg Ideal.cos ?_
  refine (shapeCast_apply _ shapeCasts_S8x1_S8 (ix1 q) (ix2 q (0 : Fin 1)) ?_).trans ?_
  · rw [Shape.rowMajor_val_two, Shape.rowMajor_val_one]
    show q.val * 1 + 0 = q.val
    omega
  · exact extractStridedSlice_apply _ p slices_S8x3_S8x1_0_0 (ix2 q (0 : Fin 1)) (ix2 q Cert.Spec.first) fun a =>
      match a with
      | ⟨0, _⟩ => by show q.val = 0 + q.val; omega
      | ⟨1, _⟩ => by show 0 = 0 + 0; rfl

/-- The bias row at (0, f) is the bias at f. -/
theorem biasRow_apply (bias : S2048.Idx → EReal) (f : Fin 2048) :
    shapeCast S1x2048 bias shapeCasts_S2048_S1x2048 (ix2 (0 : Fin 1) f) = bias (ix1 f) := by
  refine shapeCast_apply bias shapeCasts_S2048_S1x2048 _ (ix1 f) ?_
  rw [Shape.rowMajor_val_one, Shape.rowMajor_val_two]
  show f.val = 0 * 2048 + f.val
  omega

/-- The kernel's result term is the specification, index by index. -/
theorem out_eq (x : S16x4096x512.Idx → EReal) (p : S8x3.Idx → EReal) (W : S2048x8.Idx → EReal) (bias : S2048.Idx → EReal) :
    out x p W bias = Cert.Spec.G x p W bias := by
  funext i
  obtain ⟨b, s, f, rfl⟩ : ∃ (b : Fin 16) (s : Fin 4096) (f : Fin 2048), i = ix3 b s f := ⟨i 0, i 1, i 2, eq_ix3 i⟩
  unfold out
  refine (shapeCast_apply _ shapeCasts_S65536x2048_S16x4096x2048 (ix3 b s f)
    (ix2 (⟨b.val * 4096 + s.val, by omega⟩ : Fin 65536) f) ?_).trans ?_
  · rw [Shape.rowMajor_val_two, Shape.rowMajor_val_three]
    rfl
  show Region.flatAt _ _ _ (⟨b.val * 4096 + s.val, by omega⟩ : Fin 65536) f = Cert.Spec.at3 x p W bias b s f
  unfold Region.flatAt Cert.Spec.at3
  rw [biasRow_apply]
  refine congrArg (· + bias (ix1 f)) (Finset.sum_congr rfl fun q _ => ?_)
  rw [token_apply, weight_apply]
  exact Cert.Spec.scaled_weight _ _ _

variable (m : (ℓ : Loc nD τ sig) → Buf (Elt Ideal) ℓ) (ρ : Dev nD → PrngReg)

/-- Every weakly fair execution of the kernel's program terminates with the result buffer at the specification of
    the argument arrays as launched, and those unchanged. -/
theorem run : θ_run defs (onTc (τ := τ) (main (F := Ideal))) ⟨m, fun _ => 0, ρ⟩ fun r => ∀ c : Dev nD,
      r.2.mem ((c.tc : Thread nD τ).loc main_v10)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      rw [Entry.tokens, Entry.weights, Entry.biasRow]
      exact out_eq _ _ _ _), (h c).2⟩)
    (Region.run m ρ)

end Cert.KernelIdeal.Closed

end
-- ==== Proof.RefLine.lean ====
/-
  The reference program's @main as one straight line of host operations, and its run read back.

  The reference computes the gather's start indices itself: the lane numbers 0..7 reduced modulo 512 by the
  outlined remainder (a divisor-zero guard, the truncated remainder, and the sign correction that turns it into
  the floored one), then the wrap of negative indices by the axis length. Those lines are integer operations on
  eight-element vectors and take no argument; the float lines read the features the indices name, take cosines,
  scale by the cosines of the parameters' first column, contract with the weights and add the bias.
-/
import proofs.«138150_j65481071406287_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the outlined remainder's and its guard's listed where they are called, over the
    buffers the call names. -/
abbrev ops : List (HloOp τ sig (Elt F)) :=
  [ nullary main_v0 (iotaInDim S8 32 0),
    nullary main_c (constantI S_ 32 512#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8 ![] bcast_S_S8),
    TRef.binary (.of main_v0) main_call0.v3 main_call0.v4 Host.remsi,
    TRef.nullary main_call0.c_1 (constantI S_ 32 0#32),
    TRef.unary main_call0.c_1 main_call0.v5 (broadcastInDim S8 ![] bcast_S_S8),
    TRef.binary main_call0.v4 main_call0.v5 main_call0.v6 (cmpi .ne),
    TRef.nullary main_call0.c_2 (constantI S_ 32 0#32),
    TRef.unary main_call0.c_2 main_call0.v7 (broadcastInDim S8 ![] bcast_S_S8),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8 ![] bcast_S_S8),
    TRef.binary main_call0.v8 main_call0.v10 main_call0.v11 (cmpi .ne),
    TRef.binary main_call0.v11 main_call0.v6 main_call0.v12 andi,
    TRef.unary main_call0.call0.v0 main_call0.v13 (broadcastInDim S8 ![] bcast_S_S8),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S8 ![] bcast_S_S8 : (⟨S_, .i32⟩ : BufTy).Contents (Elt F) → (⟨S8, .i32⟩ : BufTy).Contents (Elt F)),
    binary main_v1 main_v2 main_v3 (cmpi .slt : (⟨S8, .i32⟩ : BufTy).Contents (Elt F) → (⟨S8, .i32⟩ : BufTy).Contents (Elt F) → (⟨S8, .i1⟩ : BufTy).Contents (Elt F)),
    nullary main_c_1 (constantI S_ 32 512#32),
    unary main_c_1 main_v4 (broadcastInDim S8 ![] bcast_S_S8 : (⟨S_, .i32⟩ : BufTy).Contents (Elt F) → (⟨S8, .i32⟩ : BufTy).Contents (Elt F)),
    binary main_v1 main_v4 main_v5 (addi : (⟨S8, .i32⟩ : BufTy).Contents (Elt F) → (⟨S8, .i32⟩ : BufTy).Contents (Elt F) → (⟨S8, .i32⟩ : BufTy).Contents (Elt F)),
    ternary main_v3 main_v5 main_v1 main_v6 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v6 main_v7 (broadcastInDim S8x1 ![0] bcast_S8_S8x1_0 : (⟨S8, .i32⟩ : BufTy).Contents (Elt F) → (⟨S8x1, .i32⟩ : BufTy).Contents (Elt F)),
    binary main_arg0 main_v7 main_v8 ((fun x i => Host.gather gather_S16x4096x512_S8x1_S16x4096x8_01_2_n_n_2_1_1640961 x i) : (⟨S16x4096x512, .f32⟩ : BufTy).Contents (Elt F) → (⟨S8x1, .i32⟩ : BufTy).Contents (Elt F) → (⟨S16x4096x8, .f32⟩ : BufTy).Contents (Elt F)),
    unary main_v8 main_v9 (Host.cos : (⟨S16x4096x8, .f32⟩ : BufTy).Contents (Elt F) → (⟨S16x4096x8, .f32⟩ : BufTy).Contents (Elt F)),
    unary main_arg1 main_v10 ((extractStridedSlice S8x1 ![0, 0] · slices_S8x3_S8x1_0_0) : (⟨S8x3, .f32⟩ : BufTy).Contents (Elt F) → (⟨S8x1, .f32⟩ : BufTy).Contents (Elt F)),
    reshape main_v10 main_v11 rfl shapeCasts_S8x1_S8,
    unary main_v11 main_v12 (Host.cos : (⟨S8, .f32⟩ : BufTy).Contents (Elt F) → (⟨S8, .f32⟩ : BufTy).Contents (Elt F)),
    unary main_v12 main_v13 (broadcastInDim S1x1x8 ![2] bcast_S8_S1x1x8_2 : (⟨S8, .f32⟩ : BufTy).Contents (Elt F) → (⟨S1x1x8, .f32⟩ : BufTy).Contents (Elt F)),
    unary main_v13 main_v14 (broadcastInDim S16x4096x8 ![0, 1, 2] bcast_S1x1x8_S16x4096x8_0_1_2 : (⟨S1x1x8, .f32⟩ : BufTy).Contents (Elt F) → (⟨S16x4096x8, .f32⟩ : BufTy).Contents (Elt F)),
    binary main_v9 main_v14 main_v15 (mulf : (⟨S16x4096x8, .f32⟩ : BufTy).Contents (Elt F) → (⟨S16x4096x8, .f32⟩ : BufTy).Contents (Elt F) → (⟨S16x4096x8, .f32⟩ : BufTy).Contents (Elt F)),
    binary main_v15 main_arg2 main_v16 ((fun l r => Host.dotGeneral dot_S16x4096x8_S2048x8_S16x4096x2048_2_1_01_0_n_n none l r) : (⟨S16x4096x8, .f32⟩ : BufTy).Contents (Elt F) → (⟨S2048x8, .f32⟩ : BufTy).Contents (Elt F) → (⟨S16x4096x2048, .f32⟩ : BufTy).Contents (Elt F)),
    unary main_arg3 main_v17 (broadcastInDim S1x1x2048 ![2] bcast_S2048_S1x1x2048_2 : (⟨S2048, .f32⟩ : BufTy).Contents (Elt F) → (⟨S1x1x2048, .f32⟩ : BufTy).Contents (Elt F)),
    unary main_v17 main_v18 (broadcastInDim S16x4096x2048 ![0, 1, 2] bcast_S1x1x2048_S16x4096x2048_0_1_2 : (⟨S1x1x2048, .f32⟩ : BufTy).Contents (Elt F) → (⟨S16x4096x2048, .f32⟩ : BufTy).Contents (Elt F)),
    binary main_v16 main_v18 main_v19 (addf : (⟨S16x4096x2048, .f32⟩ : BufTy).Contents (Elt F) → (⟨S16x4096x2048, .f32⟩ : BufTy).Contents (Elt F) → (⟨S16x4096x2048, .f32⟩ : BufTy).Contents (Elt F)) ]

set_option maxRecDepth 2048 in
/-- @main is that line: the two outlined functions unfolded at their calls, sequencing reassociated. -/
theorem main_eq (c : Dev nD) : main (F := F) c = seq ops := by
  simp only [main, fn_remainder.body, fn_where.body, seq, bind_assoc, pure_bind]

/-- The same line with the two outlined functions' operations written at the buffers themselves: each reference
    of the call's record carries its own buffer's type, so nothing is transported. -/
abbrev opsP : List (HloOp τ sig (Elt F)) :=
  [ nullary main_v0 (iotaInDim S8 32 0),
    nullary main_c (constantI S_ 32 512#32),
    unary main_c main_call0_v0 (id : (⟨S_, .i32⟩ : BufTy).Contents (Elt F) → (⟨S_, .i32⟩ : BufTy).Contents (Elt F)),
    nullary main_call0_c (constantI S_ 32 0#32),
    binary main_call0_v0 main_call0_c main_call0_v1 (cmpi .eq : (⟨S_, .i32⟩ : BufTy).Contents (Elt F) → (⟨S_, .i32⟩ : BufTy).Contents (Elt F) → (⟨S_, .i1⟩ : BufTy).Contents (Elt F)),
    nullary main_call0_c_0 (constantI S_ 32 1#32),
    ternary main_call0_v1 main_call0_c_0 main_call0_v0 main_call0_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call0_v2 main_call0_v3 (broadcastInDim S8 ![] bcast_S_S8 : (⟨S_, .i32⟩ : BufTy).Contents (Elt F) → (⟨S8, .i32⟩ : BufTy).Contents (Elt F)),
    binary main_v0 main_call0_v3 main_call0_v4 (Host.remsi : (⟨S8, .i32⟩ : BufTy).Contents (Elt F) → (⟨S8, .i32⟩ : BufTy).Contents (Elt F) → (⟨S8, .i32⟩ : BufTy).Contents (Elt F)),
    nullary main_call0_c_1 (constantI S_ 32 0#32),
    unary main_call0_c_1 main_call0_v5 (broadcastInDim S8 ![] bcast_S_S8 : (⟨S_, .i32⟩ : BufTy).Contents (Elt F) → (⟨S8, .i32⟩ : BufTy).Contents (Elt F)),
    binary main_call0_v4 main_call0_v5 main_call0_v6 (cmpi .ne : (⟨S8, .i32⟩ : BufTy).Contents (Elt F) → (⟨S8, .i32⟩ : BufTy).Contents (Elt F) → (⟨S8, .i1⟩ : BufTy).Contents (Elt F)),
    nullary main_call0_c_2 (constantI S_ 32 0#32),
    unary main_call0_c_2 main_call0_v7 (broadcastInDim S8 ![] bcast_S_S8 : (⟨S_, .i32⟩ : BufTy).Contents (Elt F) → (⟨S8, .i32⟩ : BufTy).Contents (Elt F)),
    binary main_call0_v4 main_call0_v7 main_call0_v8 (cmpi .slt : (⟨S8, .i32⟩ : BufTy).Contents (Elt F) → (⟨S8, .i32⟩ : BufTy).Contents (Elt F) → (⟨S8, .i1⟩ : BufTy).Contents (Elt F)),
    nullary main_call0_c_3 (constantI S_ 32 0#32),
    binary main_call0_v2 main_call0_c_3 main_call0_v9 (cmpi .slt : (⟨S_, .i32⟩ : BufTy).Contents (Elt F) → (⟨S_, .i32⟩ : BufTy).Contents (Elt F) → (⟨S_, .i1⟩ : BufTy).Contents (Elt F)),
    unary main_call0_v9 main_call0_v10 (broadcastInDim S8 ![] bcast_S_S8 : (⟨S_, .i1⟩ : BufTy).Contents (Elt F) → (⟨S8, .i1⟩ : BufTy).Contents (Elt F)),
    binary main_call0_v8 main_call0_v10 main_call0_v11 (cmpi .ne : (⟨S8, .i1⟩ : BufTy).Contents (Elt F) → (⟨S8, .i1⟩ : BufTy).Contents (Elt F) → (⟨S8, .i1⟩ : BufTy).Contents (Elt F)),
    binary main_call0_v11 main_call0_v6 main_call0_v12 (andi : (⟨S8, .i1⟩ : BufTy).Contents (Elt F) → (⟨S8, .i1⟩ : BufTy).Contents (Elt F) → (⟨S8, .i1⟩ : BufTy).Contents (Elt F)),
    unary main_call0_v2 main_call0_v13 (broadcastInDim S8 ![] bcast_S_S8 : (⟨S_, .i32⟩ : BufTy).Contents (Elt F) → (⟨S8, .i32⟩ : BufTy).Contents (Elt F)),
    binary main_call0_v4 main_call0_v13 main_call0_v14 (addi : (⟨S8, .i32⟩ : BufTy).Contents (Elt F) → (⟨S8, .i32⟩ : BufTy).Contents (Elt F) → (⟨S8, .i32⟩ : BufTy).Contents (Elt F)),
    ternary main_call0_v12 main_call0_v14 main_call0_v4 main_v1 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v2 (broadcastInDim S8 ![] bcast_S_S8 : (⟨S_, .i32⟩ : BufTy).Contents (Elt F) → (⟨S8, .i32⟩ : BufTy).Contents (Elt F)),
    binary main_v1 main_v2 main_v3 (cmpi .slt : (⟨S8, .i32⟩ : BufTy).Contents (Elt F) → (⟨S8, .i32⟩ : BufTy).Contents (Elt F) → (⟨S8, .i1⟩ : BufTy).Contents (Elt F)),
    nullary main_c_1 (constantI S_ 32 512#32),
    unary main_c_1 main_v4 (broadcastInDim S8 ![] bcast_S_S8 : (⟨S_, .i32⟩ : BufTy).Contents (Elt F) → (⟨S8, .i32⟩ : BufTy).Contents (Elt F)),
    binary main_v1 main_v4 main_v5 (addi : (⟨S8, .i32⟩ : BufTy).Contents (Elt F) → (⟨S8, .i32⟩ : BufTy).Contents (Elt F) → (⟨S8, .i32⟩ : BufTy).Contents (Elt F)),
    ternary main_v3 main_v5 main_v1 main_v6 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v6 main_v7 (broadcastInDim S8x1 ![0] bcast_S8_S8x1_0 : (⟨S8, .i32⟩ : BufTy).Contents (Elt F) → (⟨S8x1, .i32⟩ : BufTy).Contents (Elt F)),
    binary main_arg0 main_v7 main_v8 ((fun x i => Host.gather gather_S16x4096x512_S8x1_S16x4096x8_01_2_n_n_2_1_1640961 x i) : (⟨S16x4096x512, .f32⟩ : BufTy).Contents (Elt F) → (⟨S8x1, .i32⟩ : BufTy).Contents (Elt F) → (⟨S16x4096x8, .f32⟩ : BufTy).Contents (Elt F)),
    unary main_v8 main_v9 (Host.cos : (⟨S16x4096x8, .f32⟩ : BufTy).Contents (Elt F) → (⟨S16x4096x8, .f32⟩ : BufTy).Contents (Elt F)),
    unary main_arg1 main_v10 ((extractStridedSlice S8x1 ![0, 0] · slices_S8x3_S8x1_0_0) : (⟨S8x3, .f32⟩ : BufTy).Contents (Elt F) → (⟨S8x1, .f32⟩ : BufTy).Contents (Elt F)),
    reshape main_v10 main_v11 rfl shapeCasts_S8x1_S8,
    unary main_v11 main_v12 (Host.cos : (⟨S8, .f32⟩ : BufTy).Contents (Elt F) → (⟨S8, .f32⟩ : BufTy).Contents (Elt F)),
    unary main_v12 main_v13 (broadcastInDim S1x1x8 ![2] bcast_S8_S1x1x8_2 : (⟨S8, .f32⟩ : BufTy).Contents (Elt F) → (⟨S1x1x8, .f32⟩ : BufTy).Contents (Elt F)),
    unary main_v13 main_v14 (broadcastInDim S16x4096x8 ![0, 1, 2] bcast_S1x1x8_S16x4096x8_0_1_2 : (⟨S1x1x8, .f32⟩ : BufTy).Contents (Elt F) → (⟨S16x4096x8, .f32⟩ : BufTy).Contents (Elt F)),
    binary main_v9 main_v14 main_v15 (mulf : (⟨S16x4096x8, .f32⟩ : BufTy).Contents (Elt F) → (⟨S16x4096x8, .f32⟩ : BufTy).Contents (Elt F) → (⟨S16x4096x8, .f32⟩ : BufTy).Contents (Elt F)),
    binary main_v15 main_arg2 main_v16 ((fun l r => Host.dotGeneral dot_S16x4096x8_S2048x8_S16x4096x2048_2_1_01_0_n_n none l r) : (⟨S16x4096x8, .f32⟩ : BufTy).Contents (Elt F) → (⟨S2048x8, .f32⟩ : BufTy).Contents (Elt F) → (⟨S16x4096x2048, .f32⟩ : BufTy).Contents (Elt F)),
    unary main_arg3 main_v17 (broadcastInDim S1x1x2048 ![2] bcast_S2048_S1x1x2048_2 : (⟨S2048, .f32⟩ : BufTy).Contents (Elt F) → (⟨S1x1x2048, .f32⟩ : BufTy).Contents (Elt F)),
    unary main_v17 main_v18 (broadcastInDim S16x4096x2048 ![0, 1, 2] bcast_S1x1x2048_S16x4096x2048_0_1_2 : (⟨S1x1x2048, .f32⟩ : BufTy).Contents (Elt F) → (⟨S16x4096x2048, .f32⟩ : BufTy).Contents (Elt F)),
    binary main_v16 main_v18 main_v19 (addf : (⟨S16x4096x2048, .f32⟩ : BufTy).Contents (Elt F) → (⟨S16x4096x2048, .f32⟩ : BufTy).Contents (Elt F) → (⟨S16x4096x2048, .f32⟩ : BufTy).Contents (Elt F)) ]

/-- The two spellings are one list. -/
theorem ops_eq : (ops : List (HloOp τ sig (Elt F))) = opsP := rfl

theorem main_eqP (c : Dev nD) : main (F := F) c = seq opsP := (main_eq c).trans (congrArg seq ops_eq)

theorem scopedRefs_eq : (Finset.univ.filter fun b : Ref sig .tc => b.isScoped) = ∅ := by decide
theorem scopedSems_eq : (Finset.univ.filter fun sm : SemLoc sig => sm.isScoped .tc) = ∅ := by decide
theorem opsP_sub : (opsP : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., reshape_bufs_sub ..,
    unary_bufs_sub .., unary_bufs_sub .., unary_bufs_sub .., binary_bufs_sub .., binary_bufs_sub .., unary_bufs_sub ..,
    unary_bufs_sub .., binary_bufs_sub ..⟩

/-- From any memory with zero counters every weakly fair execution of @main terminates, and every final state has
    each buffer at the fold of the line's operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsP (launchContents m c) (b : DevRef τ sig) :=
  run_seq scopedRefs_eq scopedSems_eq defs main (fun _ => opsP) main_eqP (fun _ => opsP_sub) m ρ

end Cert.ReferenceIdeal.Line

end
-- ==== Proof.RefTerm.lean ====
/-
  The reference's result buffer after its run, as one term of the four argument arrays.

  The gather's start indices take no argument. They are built in four stages, each an eight-element integer
  vector: the divisor 512 behind its zero guard; the truncated remainder of the lane number by it; the floored
  remainder (the truncated one moved by the divisor where it is nonzero and its sign differs from the divisor's);
  and the wrap that adds the axis length 512 to a negative index. The float part reads the features those indices
  name, takes cosines, scales them by the cosines of the parameters' first column, contracts the eight features
  with the weights' rows and adds the bias.
-/
import proofs.«138150_j65481071406287_2_alg».proof.Proof.RefLine

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The divisor behind its zero guard: 1 where 512 is 0, else 512. -/
def divisor : IVec S_ 32 :=
  select (cmpi .eq (id (constantI S_ 32 512#32)) (constantI S_ 32 0#32)) (constantI S_ 32 1#32) (id (constantI S_ 32 512#32))

/-- The truncated remainder of each lane number 0..7 by the divisor. -/
def truncRem : IVec S8 32 := Host.remsi (iotaInDim S8 32 0) (broadcastInDim S8 ![] bcast_S_S8 divisor)

/-- The floored remainder: the truncated one plus the divisor where it is nonzero and of the other sign. -/
def floorRem : IVec S8 32 :=
  select
    (andi
      (cmpi .ne (cmpi .slt truncRem (broadcastInDim S8 ![] bcast_S_S8 (constantI S_ 32 0#32)))
        (broadcastInDim S8 ![] bcast_S_S8 (cmpi .slt divisor (constantI S_ 32 0#32))))
      (cmpi .ne truncRem (broadcastInDim S8 ![] bcast_S_S8 (constantI S_ 32 0#32))))
    (addi truncRem (broadcastInDim S8 ![] bcast_S_S8 divisor))
    truncRem

/-- The index with a negative one wrapped by the axis length 512. -/
def wrapped : IVec S8 32 :=
  select (cmpi .slt floorRem (broadcastInDim S8 ![] bcast_S_S8 (constantI S_ 32 0#32)))
    (addi floorRem (broadcastInDim S8 ![] bcast_S_S8 (constantI S_ 32 512#32)))
    floorRem

/-- The gather's start indices: one index per feature, as a column. -/
def startIdx : IVec S8x1 32 := broadcastInDim S8x1 ![0] bcast_S8_S8x1_0 wrapped

/-- The cosines of the parameters' first column, one per feature. -/
def paramCos (p : (⟨S8x3, .f32⟩ : BufTy).Contents (Elt F)) : (⟨S8, .f32⟩ : BufTy).Contents (Elt F) :=
  Host.cos (shapeCast S8 (extractStridedSlice S8x1 ![0, 0] p slices_S8x3_S8x1_0_0) shapeCasts_S8x1_S8)

/-- The reference's result as a term of its arguments. -/
def outTerm (x : (⟨S16x4096x512, .f32⟩ : BufTy).Contents (Elt F)) (p : (⟨S8x3, .f32⟩ : BufTy).Contents (Elt F))
    (W : (⟨S2048x8, .f32⟩ : BufTy).Contents (Elt F)) (b : (⟨S2048, .f32⟩ : BufTy).Contents (Elt F)) :
    (⟨S16x4096x2048, .f32⟩ : BufTy).Contents (Elt F) :=
  addf
    (Host.dotGeneral dot_S16x4096x8_S2048x8_S16x4096x2048_2_1_01_0_n_n none
      (mulf (Host.cos (Host.gather gather_S16x4096x512_S8x1_S16x4096x8_01_2_n_n_2_1_1640961 x startIdx))
        (broadcastInDim S16x4096x8 ![0, 1, 2] bcast_S1x1x8_S16x4096x8_0_1_2
          (broadcastInDim S1x1x8 ![2] bcast_S8_S1x1x8_2 (paramCos p))))
      W)
    (broadcastInDim S16x4096x2048 ![0, 1, 2] bcast_S1x1x2048_S16x4096x2048_0_1_2
      (broadcastInDim S1x1x2048 ![2] bcast_S2048_S1x1x2048_2 b))

/-- The fold of the line at the result buffer is that term of the contents at the argument buffers. -/
theorem out_eq (V : Valuation τ sig (Elt F)) :
    after opsP V (main_v19 : DevRef τ sig)
      = outTerm (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after opsP V (main_arg0 : DevRef τ sig) = V (main_arg0 : DevRef τ sig) := by
  after_results_simp
theorem arg1_eq (V : Valuation τ sig (Elt F)) : after opsP V (main_arg1 : DevRef τ sig) = V (main_arg1 : DevRef τ sig) := by
  after_results_simp
theorem arg2_eq (V : Valuation τ sig (Elt F)) : after opsP V (main_arg2 : DevRef τ sig) = V (main_arg2 : DevRef τ sig) := by
  after_results_simp
theorem arg3_eq (V : Valuation τ sig (Elt F)) : after opsP V (main_arg3 : DevRef τ sig) = V (main_arg3 : DevRef τ sig) := by
  after_results_simp

/-- Every weakly fair execution of the reference terminates with the result buffer at `outTerm` of the argument
    arrays as launched, and those unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = outTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (out_eq _), (h c main_arg0).trans (arg0_eq _),
      (h c main_arg1).trans (arg1_eq _), (h c main_arg2).trans (arg2_eq _), (h c main_arg3).trans (arg3_eq _)⟩)
    (run_fold m ρ)

end Cert.ReferenceIdeal.Line

end
-- ==== Proof.RefValue.lean ====
/-
  The reference's result term, read index by index at the extended reals, is the specification.

  Each stage of the term is read at one index. The start indices evaluate to the lane numbers 0..7 (the remainder of
  a number below 512 by 512 is the number, nothing is negative, and the clamp into [0, 511] does nothing), so the
  gather reads feature q of the token. The parameters' slice and reshape read column 0 of row q. The two
  broadcasts of an eight-vector to [16, 4096, 8] read the vector at the last coordinate, those of the bias at the
  feature. The contraction over the last axis of the left operand and the last axis of the weights is a sum over
  q < 8 of products, and adding the broadcast bias is adding bias[f].
-/
import proofs.«138150_j65481071406287_2_alg».proof.Proof.RefTerm
import proofs.«138150_j65481071406287_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Reading

open Cert.ReferenceIdeal Cert.ReferenceIdeal.Gen Cert.ReferenceIdeal.Line Idealize.ShloMosaic Idealize.ShloMosaic.ValueIdx

/-- The gather's dimension numbers: the token axes are offset axes of the result, the feature axis is collapsed and
    is the one the start index addresses; the start indices are a column, one index per result feature. -/
abbrev GD := gather_S16x4096x512_S8x1_S16x4096x8_01_2_n_n_2_1_1640961

/-- The contraction's dimension numbers: the left operand's last axis against the weights' last axis. -/
abbrev DD := dot_S16x4096x8_S2048x8_S16x4096x2048_2_1_01_0_n_n

/-! ## The gather -/

/-- The gather read at (b, s, q): the operand at token (b, s) and at the feature the q-th start index names, read
    signed and clamped into [0, 511]. -/
theorem gather_apply {α : Type} (x : S16x4096x512.Idx → α) (idx : IVec S8x1 32) (b : Fin 16) (s : Fin 4096) (q : Fin 8) :
    Host.gather GD x idx (ix3 b s q)
      = x (ix3 b s ⟨min (idx (ix2 q (0 : Fin 1))).toInt.toNat 511, by omega⟩) := by
  unfold Host.gather
  refine congrArg x (funext fun a => Fin.ext ?_)
  show GD.start (ix3 b s q) idx a + GD.batchCoord (ix3 b s q) a + GD.offCoord (ix3 b s q) a = _
  rw [GatherDims.batchCoord_eq_zero _ _ _ List.not_mem_nil, Nat.add_zero]
  match a with
  | ⟨0, _⟩ =>
    have h0 : GD.start (ix3 b s q) idx (0 : Fin 3) = 0 := by
      unfold GatherDims.start; rw [dif_neg (by decide)]
    have h1 : GD.offCoord (ix3 b s q) (0 : Fin 3) = b.val := by
      unfold GatherDims.offCoord; rw [dif_pos (by decide)]; rfl
    show GD.start (ix3 b s q) idx (0 : Fin 3) + GD.offCoord (ix3 b s q) (0 : Fin 3) = b.val
    rw [h0, h1, Nat.zero_add]
  | ⟨1, _⟩ =>
    have h0 : GD.start (ix3 b s q) idx (1 : Fin 3) = 0 := by
      unfold GatherDims.start; rw [dif_neg (by decide)]
    have h1 : GD.offCoord (ix3 b s q) (1 : Fin 3) = s.val := by
      unfold GatherDims.offCoord; rw [dif_pos (by decide)]; rfl
    show GD.start (ix3 b s q) idx (1 : Fin 3) + GD.offCoord (ix3 b s q) (1 : Fin 3) = s.val
    rw [h0, h1, Nat.zero_add]
  | ⟨2, _⟩ =>
    have h1 : GD.offCoord (ix3 b s q) (2 : Fin 3) = 0 :=
      GatherDims.offCoord_eq_zero _ _ _ (fun h => ((GatherDims.mem_sKept _ _).mp h).1 (by decide))
    show GD.start (ix3 b s q) idx (2 : Fin 3) + GD.offCoord (ix3 b s q) (2 : Fin 3)
      = min (idx (ix2 q (0 : Fin 1))).toInt.toNat 511
    rw [h1, Nat.add_zero]
    unfold GatherDims.start
    rw [dif_pos (show (2 : Fin 3) ∈ GD.startIndexMap by decide)]
    have hsi : GD.siIdx (ix3 b s q) ⟨List.idxOf (2 : Fin 3) GD.startIndexMap,
        List.idxOf_lt_length_iff.2 (show (2 : Fin 3) ∈ GD.startIndexMap by decide)⟩ = ix2 q (0 : Fin 1) := by
      funext c; refine Fin.ext ?_
      match c with
      | ⟨0, _⟩ => rfl
      | ⟨1, _⟩ => rfl
    rw [hsi]
    rfl

/-- The q-th start index, read signed and clamped, is q: every stage of the index computation evaluated on the
    eight lanes. -/
theorem start_clamped : ∀ q : Fin 8, min (startIdx (ix2 q (0 : Fin 1))).toInt.toNat 511 = q.val := by decide

/-- So the gather of the start indices reads feature q of the token. -/
theorem gathered_apply (x : S16x4096x512.Idx → EReal) (b : Fin 16) (s : Fin 4096) (q : Fin 8) :
    Host.gather GD x startIdx (ix3 b s q) = x (ix3 b s (Cert.Spec.col q)) :=
  (gather_apply x startIdx b s q).trans (congrArg (fun z => x (ix3 b s z)) (Fin.ext (start_clamped q)))

/-! ## The parameters' cosines and the broadcasts -/

/-- The q-th of the parameters' cosines is the cosine of row q, column 0. -/
theorem paramCos_apply (p : S8x3.Idx → EReal) (q : Fin 8) :
    paramCos (F := Ideal) p (ix1 q) = Ideal.cos (p (ix2 q Cert.Spec.first)) := by
  unfold paramCos
  show Ideal.cos (shapeCast S8 (extractStridedSlice S8x1 ![0, 0] p slices_S8x3_S8x1_0_0) shapeCasts_S8x1_S8 (ix1 q)) = _
  refine congrArg Ideal.cos ?_
  refine (shapeCast_apply _ shapeCasts_S8x1_S8 (ix1 q) (ix2 q (0 : Fin 1)) ?_).trans ?_
  · rw [Shape.rowMajor_val_two, Shape.rowMajor_val_one]
    show q.val * 1 + 0 = q.val
    omega
  · exact extractStridedSlice_apply _ p slices_S8x3_S8x1_0_0 (ix2 q (0 : Fin 1)) (ix2 q Cert.Spec.first) fun a =>
      match a with
      | ⟨0, _⟩ => by show q.val = 0 + q.val; omega
      | ⟨1, _⟩ => by show 0 = 0 + 0; rfl

/-- An eight-vector broadcast along the feature axis to [1, 1, 8] and then over the tokens reads, at (b, s, q), the
    vector at q. -/
theorem scale_apply (v : S8.Idx → EReal) (b : Fin 16) (s : Fin 4096) (q : Fin 8) :
    broadcastInDim S16x4096x8 ![0, 1, 2] bcast_S1x1x8_S16x4096x8_0_1_2 (broadcastInDim S1x1x8 ![2] bcast_S8_S1x1x8_2 v) (ix3 b s q)
      = v (ix1 q) := by
  refine (broadcastInDim_apply _ bcast_S1x1x8_S16x4096x8_0_1_2 _ (ix3 b s q) (ix3 (0 : Fin 1) (0 : Fin 1) q) fun a => ?_).trans ?_
  · match a with
    | ⟨0, _⟩ => rfl
    | ⟨1, _⟩ => rfl
    | ⟨2, _⟩ => rfl
  · exact broadcastInDim_apply _ bcast_S8_S1x1x8_2 v (ix3 (0 : Fin 1) (0 : Fin 1) q) (ix1 q) fun a =>
      match a with
      | ⟨0, _⟩ => rfl

/-- The bias broadcast the same way reads, at (b, s, f), the bias at f. -/
theorem bias_apply (v : S2048.Idx → EReal) (b : Fin 16) (s : Fin 4096) (f : Fin 2048) :
    broadcastInDim S16x4096x2048 ![0, 1, 2] bcast_S1x1x2048_S16x4096x2048_0_1_2
        (broadcastInDim S1x1x2048 ![2] bcast_S2048_S1x1x2048_2 v) (ix3 b s f)
      = v (ix1 f) := by
  refine (broadcastInDim_apply _ bcast_S1x1x2048_S16x4096x2048_0_1_2 _ (ix3 b s f) (ix3 (0 : Fin 1) (0 : Fin 1) f) fun a => ?_).trans ?_
  · match a with
    | ⟨0, _⟩ => rfl
    | ⟨1, _⟩ => rfl
    | ⟨2, _⟩ => rfl
  · exact broadcastInDim_apply _ bcast_S2048_S1x1x2048_2 v (ix3 (0 : Fin 1) (0 : Fin 1) f) (ix1 f) fun a =>
      match a with
      | ⟨0, _⟩ => rfl

/-! ## The contraction -/

/-- The contraction read at (b, s, f): the sum over the eight features of the left operand at (b, s, q) times the
    weights at (f, q). -/
theorem dot_apply (l : FVec Ideal S16x4096x8 .f32) (r : FVec Ideal S2048x8 .f32) (b : Fin 16) (s : Fin 4096) (f : Fin 2048) :
    Host.dotGeneral DD none l r (ix3 b s f) = ∑ q : Fin 8, l (ix3 b s q) * r (ix2 f q) := by
  show FloatOps.dotGeneral DD none .single l r (ix3 b s f) = _
  rw [Ideal.dotGeneral_apply, ← Equiv.sum_comp (contrEquiv1 DD 8 rfl rfl).symm]
  refine Finset.sum_congr rfl fun q _ => ?_
  have hl : DD.lhsIdx (ix3 b s f) ((contrEquiv1 DD 8 rfl rfl).symm q) = ix3 b s q := by
    funext a; refine Fin.ext ?_
    match a with
    | ⟨0, _⟩ => rfl
    | ⟨1, _⟩ => rfl
    | ⟨2, _⟩ =>
      exact (DotDims.lhsIdx_val_of_single DD (cl := (2 : Fin 3)) rfl _ _).trans (contrEquiv1_symm_val DD 8 rfl rfl q)
  have hr : DD.rhsIdx (ix3 b s f) ((contrEquiv1 DD 8 rfl rfl).symm q) = ix2 f q := by
    funext a; refine Fin.ext ?_
    match a with
    | ⟨0, _⟩ => rfl
    | ⟨1, _⟩ =>
      exact (DotDims.rhsIdx_val_of_single DD (cr := (1 : Fin 2)) rfl _ _).trans (contrEquiv1_symm_val DD 8 rfl rfl q)
  rw [hl, hr]

/-! ## The term is the specification -/

/-- The reference's result term at the extended reals is the specification, index by index. -/
theorem outTerm_eq (x : S16x4096x512.Idx → EReal) (p : S8x3.Idx → EReal) (W : S2048x8.Idx → EReal) (bias : S2048.Idx → EReal) :
    outTerm (F := Ideal) x p W bias = Cert.Spec.G x p W bias := by
  funext i
  obtain ⟨b, s, f, rfl⟩ : ∃ (b : Fin 16) (s : Fin 4096) (f : Fin 2048), i = ix3 b s f := ⟨i 0, i 1, i 2, eq_ix3 i⟩
  unfold outTerm
  show Host.dotGeneral (F := Ideal) DD none _ W (ix3 b s f) + _ = Cert.Spec.at3 x p W bias b s f
  rw [dot_apply, bias_apply]
  unfold Cert.Spec.at3
  refine congrArg (· + bias (ix1 f)) (Finset.sum_congr rfl fun q _ => ?_)
  show Ideal.cos (Host.gather GD x startIdx (ix3 b s q)) * _ * W (ix2 f q) = Cert.Spec.term x p W b s f q
  rw [gathered_apply, scale_apply, paramCos_apply]
  rfl

end Cert.ReferenceIdeal.Reading

end
-- ==== Proof.lean ====
/-
  The five claims of this certificate.

  Both idealized programs compute, for each token (b, s) and output feature f,

      ( Σ_{q < 8}  (cos x[b, s, q] · cos p[q, 0]) · W[f, q] )  +  bias[f]

  on the extended reals (Proof/Spec.lean). The reference does it as written: it gathers the token's first eight
  features at indices it computes itself (the lane numbers modulo 512, which are the lane numbers), takes cosines,
  scales by the cosines of the parameters' first column, contracts with the weights and adds the bias (its run:
  Proof/RefLine.lean and Proof/RefTerm.lean; its term read index by index: Proof/RefValue.lean). The kernel's program
  scales the weights by the parameters' cosines on the host and transposes them, flattens the tokens, and in the
  region multiplies the cosine of each block of 1024 tokens' first eight features by the scaled weights and adds the
  bias row; the 64 blocks tile the output, which the host then gives back its token axes (the staged arrays:
  Proof/KernelEntry.lean; the body's value: Proof/KernelBody.lean; blocks to array and the reshape:
  Proof/KernelRegion.lean; the result as the specification: Proof/KernelClosed.lean). The two arrangements differ by
  cos x · (W · cos p) against (cos x · cos p) · W, equal by commutativity and associativity of the product of extended
  reals, so the precondition is never opened. The idealization rewrote nothing, so `preserves` is trivial; the
  kernel's two frames are the generated ones, and the reference's frame is its run with the result dropped.
-/
import proofs.«138150_j65481071406287_2_alg».proof.Defs
import proofs.«138150_j65481071406287_2_alg».proof.Proof.Gen.Kernel
import proofs.«138150_j65481071406287_2_alg».proof.Proof.Gen.Kernel.Skeleton
import proofs.«138150_j65481071406287_2_alg».proof.Proof.Gen.Kernel.Launch
import proofs.«138150_j65481071406287_2_alg».proof.Proof.Gen.Kernel.Points
import proofs.«138150_j65481071406287_2_alg».proof.Proof.Gen.Kernel.Frame
import proofs.«138150_j65481071406287_2_alg».proof.Proof.Gen.KernelIdeal
import proofs.«138150_j65481071406287_2_alg».proof.Proof.Gen.KernelIdeal.Skeleton
import proofs.«138150_j65481071406287_2_alg».proof.Proof.Gen.KernelIdeal.Launch
import proofs.«138150_j65481071406287_2_alg».proof.Proof.Gen.KernelIdeal.Points
import proofs.«138150_j65481071406287_2_alg».proof.Proof.Gen.KernelIdeal.Frame
import proofs.«138150_j65481071406287_2_alg».proof.Proof.Gen.ReferenceIdeal
import proofs.«138150_j65481071406287_2_alg».proof.Proof.Gen.Pre_finite_inputs
import proofs.«138150_j65481071406287_2_alg».proof.Proof.KernelClosed
import proofs.«138150_j65481071406287_2_alg».proof.Proof.RefValue
import Idealize.ShloMosaic.Adequacy
import Idealize.ShloMosaic.Init

noncomputable section

namespace Cert.Proof

open Idealize.ShloMosaic Idealize.SL.Sem

/-- The printed kernel's program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- The idealization rewrote no operation. -/
theorem preserves : Cert.preserves_Kernel_KernelIdeal := trivial

/-- From memories agreeing on the arguments both idealized programs end with the specification of those arguments
    in their result buffers. -/
theorem algebraic : Cert.algebraic_KernelIdeal_ReferenceIdeal := by
  intro m ρ m' ρ' _ hagree
  refine ⟨_, Cert.KernelIdeal.Closed.run m ρ, ?_⟩
  refine (θ_run Cert.ReferenceIdeal.defs _ _).mono (fun _ h c => ⟨(h c).1.trans ?_, (h c).2⟩)
    (Cert.ReferenceIdeal.Line.run (F := Ideal) m' ρ')
  rw [Cert.ReferenceIdeal.Reading.outTerm_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
